-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x8192 : S_.BroadcastsInDim S64x8192 (![] : Fin 0 → Fin S64x8192.rank)
  reducesTo_S64x8192_S_d0_1 : S64x8192.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg18 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg14 : FVec F S256 .f32) (main_arg15 : FVec F S256x256 .f32) (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_v63 main_v67

def fn_part2 {F : FTy → Type} [FloatOps F] (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x128 .f32) (main_arg1 : FVec F S8192x8192 .f32) (main_arg2 : FVec F S64x8192 .f32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S8192x256 : Shape := ⟨2, ![8192, 256]⟩
abbrev S256x8192 : Shape := ⟨2, ![256, 8192]⟩
abbrev S256x128 : Shape := ⟨2, ![256, 128]⟩
abbrev S_ : Shape := ⟨0, ![]⟩
abbrev S64x256 : Shape := ⟨2, ![64, 256]⟩

abbrev nBuf : Space → Nat
  | .hbm => 168
  | .vmem => 14
  | .smem => 0
  | _ => 0

abbrev hbmTy0_0 (i : Nat) : BufTy := match i % 128 with
  | 0 => ⟨S8192x128, .f32⟩
  | 1 => ⟨S8192x8192, .f32⟩
  | 2 => ⟨S64x8192, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S8192x128, .bf16⟩
  | 20 => ⟨S128x256, .bf16⟩
  | 21 => ⟨S1x256, .f32⟩
  | 22 => ⟨S8192x256, .f32⟩
  | 23 => ⟨S_, .f32⟩
  | 24 => ⟨S256, .f32⟩
  | 25 => ⟨S_, .f32⟩
  | 26 => ⟨S256, .f32⟩
  | 27 => ⟨S256, .f32⟩
  | 28 => ⟨S1x256, .f32⟩
  | 29 => ⟨S8192x256, .f32⟩
  | 30 => ⟨S8192x256, .f32⟩
  | 31 => ⟨S8192x256, .f32⟩
  | 32 => ⟨S_, .f32⟩
  | 33 => ⟨S256, .f32⟩
  | 34 => ⟨S_, .f32⟩
  | 35 => ⟨S256, .f32⟩
  | 36 => ⟨S256, .f32⟩
  | 37 => ⟨S1x256, .f32⟩
  | 38 => ⟨S8192x256, .f32⟩
  | 39 => ⟨S8192x256, .f32⟩
  | 40 => ⟨S_, .f32⟩
  | 41 => ⟨S256, .f32⟩
  | 42 => ⟨S256, .f32⟩
  | 43 => ⟨S256, .f32⟩
  | 44 => ⟨S1x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S1x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S8192x256, .f32⟩
  | 57 => ⟨S1x256, .f32⟩
  | 58 => ⟨S8192x256, .f32⟩
  | 59 => ⟨S8192x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S8192x256, .f32⟩
  | 67 => ⟨S8192x256, .f32⟩
  | 68 => ⟨S8192x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S8192x256, .f32⟩
  | 76 => ⟨S8192x256, .f32⟩
  | 77 => ⟨S_, .f32⟩
  | 78 => ⟨S256, .f32⟩
  | 79 => ⟨S256, .f32⟩
  | 80 => ⟨S256, .f32⟩
  | 81 => ⟨S1x256, .f32⟩
  | 82 => ⟨S8192x256, .f32⟩
  | 83 => ⟨S8192x256, .f32⟩
  | 84 => ⟨S1x256, .f32⟩
  | 85 => ⟨S8192x256, .f32⟩
  | 86 => ⟨S8192x256, .f32⟩
  | 87 => ⟨S1x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .bf16⟩
  | 94 => ⟨S256x256, .bf16⟩
  | 95 => ⟨S1x256, .f32⟩
  | 96 => ⟨S8192x256, .f32⟩
  | 97 => ⟨S_, .f32⟩
  | 98 => ⟨S256, .f32⟩
  | 99 => ⟨S_, .f32⟩
  | 100 => ⟨S256, .f32⟩
  | 101 => ⟨S256, .f32⟩
  | 102 => ⟨S1x256, .f32⟩
  | 103 => ⟨S8192x256, .f32⟩
  | 104 => ⟨S8192x256, .f32⟩
  | 105 => ⟨S8192x256, .f32⟩
  | 106 => ⟨S_, .f32⟩
  | 107 => ⟨S256, .f32⟩
  | 108 => ⟨S_, .f32⟩
  | 109 => ⟨S256, .f32⟩
  | 110 => ⟨S256, .f32⟩
  | 111 => ⟨S1x256, .f32⟩
  | 112 => ⟨S8192x256, .f32⟩
  | 113 => ⟨S8192x256, .f32⟩
  | 114 => ⟨S_, .f32⟩
  | 115 => ⟨S256, .f32⟩
  | 116 => ⟨S256, .f32⟩
  | 117 => ⟨S256, .f32⟩
  | 118 => ⟨S1x256, .f32⟩
  | 119 => ⟨S8192x256, .f32⟩
  | 120 => ⟨S8192x256, .f32⟩
  | 121 => ⟨S1x256, .f32⟩
  | 122 => ⟨S8192x256, .f32⟩
  | 123 => ⟨S8192x256, .f32⟩
  | 124 => ⟨S1x256, .f32⟩
  | 125 => ⟨S8192x256, .f32⟩
  | 126 => ⟨S8192x256, .f32⟩
  | 127 => ⟨S_, .f32⟩
  | _ => ⟨S8192x128, .f32⟩

abbrev hbmTy0_1 (i : Nat) : BufTy := match i % 128 with
  | 0 => ⟨S8192x256, .f32⟩
  | 1 => ⟨S8192x256, .f32⟩
  | 2 => ⟨S8192x256, .f32⟩
  | 3 => ⟨S1x256, .f32⟩
  | 4 => ⟨S8192x256, .f32⟩
  | 5 => ⟨S8192x256, .f32⟩
  | 6 => ⟨S_, .f32⟩
  | 7 => ⟨S256, .f32⟩
  | 8 => ⟨S_, .f32⟩
  | 9 => ⟨S256, .f32⟩
  | 10 => ⟨S256, .f32⟩
  | 11 => ⟨S1x256, .f32⟩
  | 12 => ⟨S8192x256, .f32⟩
  | 13 => ⟨S8192x256, .f32⟩
  | 14 => ⟨S8192x256, .f32⟩
  | 15 => ⟨S_, .f32⟩
  | 16 => ⟨S256, .f32⟩
  | 17 => ⟨S_, .f32⟩
  | 18 => ⟨S256, .f32⟩
  | 19 => ⟨S256, .f32⟩
  | 20 => ⟨S1x256, .f32⟩
  | 21 => ⟨S8192x256, .f32⟩
  | 22 => ⟨S8192x256, .f32⟩
  | 23 => ⟨S_, .f32⟩
  | 24 => ⟨S256, .f32⟩
  | 25 => ⟨S256, .f32⟩
  | 26 => ⟨S256, .f32⟩
  | 27 => ⟨S1x256, .f32⟩
  | 28 => ⟨S8192x256, .f32⟩
  | 29 => ⟨S8192x256, .f32⟩
  | 30 => ⟨S1x256, .f32⟩
  | 31 => ⟨S8192x256, .f32⟩
  | 32 => ⟨S8192x256, .f32⟩
  | 33 => ⟨S1x256, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S64x256, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S128x256, .bf16⟩
  | .local _ .vmem, ⟨4, _⟩ => ⟨S1x256, .f32⟩
  | .local _ .vmem, ⟨5, _⟩ => ⟨S256x256, .f32⟩
  | .local _ .vmem, ⟨6, _⟩ => ⟨S256x256, .f32⟩
  | .local _ .vmem, ⟨7, _⟩ => ⟨S256x8192, .f32⟩
  | .local _ .vmem, ⟨8, _⟩ => ⟨S256x8192, .f32⟩
  | .local _ .vmem, ⟨9, _⟩ => ⟨S8192x256, .bf16⟩
  | .local _ .vmem, ⟨10, _⟩ => ⟨S256x256, .bf16⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_cst : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_cst_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_11 : Ref sig .tc := ⟨.hbm, 106, rfl⟩
abbrev main_v71 : Ref sig .tc := ⟨.hbm, 107, rfl⟩
abbrev main_cst_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_13 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call2_cst : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_cst_15 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_16 : Ref sig .tc := ⟨.hbm, 143, rfl⟩
abbrev main_v101 : Ref sig .tc := ⟨.hbm, 144, rfl⟩
abbrev main_cst_17 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_18 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_call3_cst : Ref sig .tc := ⟨.hbm, 164, rfl⟩
abbrev main_call3_v0 : Ref sig .tc := ⟨.hbm, 165, rfl⟩
abbrev main_v119 : Ref sig .tc := ⟨.hbm, 166, rfl⟩
abbrev main_v120 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S256_S1x256 : S256.ShapeCasts S1x256
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S256x256_S256x256 : S256x256.ShapeCasts S256x256
  dot_S256x8192_S8192x128_S256x128_1_0_0_1_n_n_wf : DotDims.WF S256x8192 S8192x128 S256x128 [1] [0] [0] [1] [] []
  dot_S256x128_S128x256_S256x256_1_0_0_1_n_n_wf : DotDims.WF S256x128 S128x256 S256x256 [1] [0] [0] [1] [] []
  dot_S8192x256_S256x256_S8192x256_1_0_0_1_n_n_wf : DotDims.WF S8192x256 S256x256 S8192x256 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  dot_S64x8192_S8192x256_S64x256_1_0_0_1_n_n_wf : DotDims.WF S64x8192 S8192x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .f32 = 32 ∨ (Rect.block (s := S8192x256) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S8192x256.size a
  hwx1_4 : ∀ i : grid1.Coords, EltTy.bits .f32 = 32 ∨ (Rect.block (s := S8192x256) S256x256.size (cc1_transform_4 i) (hinb1_4 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S8192x256 : Shape := ⟨2, ![8192, 256]⟩
abbrev S1x256 : Shape := ⟨2, ![1, 256]⟩
abbrev S_ : Shape := ⟨0, ![]⟩
abbrev S64x256 : Shape := ⟨2, ![64, 256]⟩

abbrev nBuf : Space → Nat
  | .hbm => 170
  | .vmem => 0
  | .smem => 0
  | _ => 0

abbrev hbmTy0_0 (i : Nat) : BufTy := match i % 128 with
  | 0 => ⟨S8192x128, .f32⟩
  | 1 => ⟨S8192x8192, .f32⟩
  | 2 => ⟨S64x8192, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S8192x128, .f32⟩
  | 20 => ⟨S8192x256, .f32⟩
  | 21 => ⟨S1x256, .f32⟩
  | 22 => ⟨S8192x256, .f32⟩
  | 23 => ⟨S8192x256, .f32⟩
  | 24 => ⟨S_, .f32⟩
  | 25 => ⟨S256, .f32⟩
  | 26 => ⟨S_, .f32⟩
  | 27 => ⟨S256, .f32⟩
  | 28 => ⟨S256, .f32⟩
  | 29 => ⟨S1x256, .f32⟩
  | 30 => ⟨S8192x256, .f32⟩
  | 31 => ⟨S8192x256, .f32⟩
  | 32 => ⟨S8192x256, .f32⟩
  | 33 => ⟨S_, .f32⟩
  | 34 => ⟨S256, .f32⟩
  | 35 => ⟨S_, .f32⟩
  | 36 => ⟨S256, .f32⟩
  | 37 => ⟨S256, .f32⟩
  | 38 => ⟨S1x256, .f32⟩
  | 39 => ⟨S8192x256, .f32⟩
  | 40 => ⟨S8192x256, .f32⟩
  | 41 => ⟨S_, .f32⟩
  | 42 => ⟨S256, .f32⟩
  | 43 => ⟨S256, .f32⟩
  | 44 => ⟨S256, .f32⟩
  | 45 => ⟨S1x256, .f32⟩
  | 46 => ⟨S8192x256, .f32⟩
  | 47 => ⟨S8192x256, .f32⟩
  | 48 => ⟨S1x256, .f32⟩
  | 49 => ⟨S8192x256, .f32⟩
  | 50 => ⟨S8192x256, .f32⟩
  | 51 => ⟨S1x256, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S1x256, .f32⟩
  | 59 => ⟨S8192x256, .f32⟩
  | 60 => ⟨S8192x256, .f32⟩
  | 61 => ⟨S_, .f32⟩
  | 62 => ⟨S256, .f32⟩
  | 63 => ⟨S_, .f32⟩
  | 64 => ⟨S256, .f32⟩
  | 65 => ⟨S256, .f32⟩
  | 66 => ⟨S1x256, .f32⟩
  | 67 => ⟨S8192x256, .f32⟩
  | 68 => ⟨S8192x256, .f32⟩
  | 69 => ⟨S8192x256, .f32⟩
  | 70 => ⟨S_, .f32⟩
  | 71 => ⟨S256, .f32⟩
  | 72 => ⟨S_, .f32⟩
  | 73 => ⟨S256, .f32⟩
  | 74 => ⟨S256, .f32⟩
  | 75 => ⟨S1x256, .f32⟩
  | 76 => ⟨S8192x256, .f32⟩
  | 77 => ⟨S8192x256, .f32⟩
  | 78 => ⟨S_, .f32⟩
  | 79 => ⟨S256, .f32⟩
  | 80 => ⟨S256, .f32⟩
  | 81 => ⟨S256, .f32⟩
  | 82 => ⟨S1x256, .f32⟩
  | 83 => ⟨S8192x256, .f32⟩
  | 84 => ⟨S8192x256, .f32⟩
  | 85 => ⟨S1x256, .f32⟩
  | 86 => ⟨S8192x256, .f32⟩
  | 87 => ⟨S8192x256, .f32⟩
  | 88 => ⟨S1x256, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S1x256, .f32⟩
  | 97 => ⟨S8192x256, .f32⟩
  | 98 => ⟨S8192x256, .f32⟩
  | 99 => ⟨S_, .f32⟩
  | 100 => ⟨S256, .f32⟩
  | 101 => ⟨S_, .f32⟩
  | 102 => ⟨S256, .f32⟩
  | 103 => ⟨S256, .f32⟩
  | 104 => ⟨S1x256, .f32⟩
  | 105 => ⟨S8192x256, .f32⟩
  | 106 => ⟨S8192x256, .f32⟩
  | 107 => ⟨S8192x256, .f32⟩
  | 108 => ⟨S_, .f32⟩
  | 109 => ⟨S256, .f32⟩
  | 110 => ⟨S_, .f32⟩
  | 111 => ⟨S256, .f32⟩
  | 112 => ⟨S256, .f32⟩
  | 113 => ⟨S1x256, .f32⟩
  | 114 => ⟨S8192x256, .f32⟩
  | 115 => ⟨S8192x256, .f32⟩
  | 116 => ⟨S_, .f32⟩
  | 117 => ⟨S256, .f32⟩
  | 118 => ⟨S256, .f32⟩
  | 119 => ⟨S256, .f32⟩
  | 120 => ⟨S1x256, .f32⟩
  | 121 => ⟨S8192x256, .f32⟩
  | 122 => ⟨S8192x256, .f32⟩
  | 123 => ⟨S1x256, .f32⟩
  | 124 => ⟨S8192x256, .f32⟩
  | 125 => ⟨S8192x256, .f32⟩
  | 126 => ⟨S1x256, .f32⟩
  | 127 => ⟨S8192x256, .f32⟩
  | _ => ⟨S8192x128, .f32⟩

abbrev hbmTy0_1 (i : Nat) : BufTy := match i % 128 with
  | 0 => ⟨S8192x256, .f32⟩
  | 1 => ⟨S_, .f32⟩
  | 2 => ⟨S8192x256, .f32⟩
  | 3 => ⟨S8192x256, .f32⟩
  | 4 => ⟨S8192x256, .f32⟩
  | 5 => ⟨S1x256, .f32⟩
  | 6 => ⟨S8192x256, .f32⟩
  | 7 => ⟨S8192x256, .f32⟩
  | 8 => ⟨S_, .f32⟩
  | 9 => ⟨S256, .f32⟩
  | 10 => ⟨S_, .f32⟩
  | 11 => ⟨S256, .f32⟩
  | 12 => ⟨S256, .f32⟩
  | 13 => ⟨S1x256, .f32⟩
  | 14 => ⟨S8192x256, .f32⟩
  | 15 => ⟨S8192x256, .f32⟩
  | 16 => ⟨S8192x256, .f32⟩
  | 17 => ⟨S_, .f32⟩
  | 18 => ⟨S256, .f32⟩
  | 19 => ⟨S_, .f32⟩
  | 20 => ⟨S256, .f32⟩
  | 21 => ⟨S256, .f32⟩
  | 22 => ⟨S1x256, .f32⟩
  | 23 => ⟨S8192x256, .f32⟩
  | 24 => ⟨S8192x256, .f32⟩
  | 25 => ⟨S_, .f32⟩
  | 26 => ⟨S256, .f32⟩
  | 27 => ⟨S256, .f32⟩
  | 28 => ⟨S256, .f32⟩
  | 29 => ⟨S1x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S1x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S64x256, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_cst : Ref sig .tc := ⟨.hbm, 54, rfl⟩
abbrev main_call0_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call1_cst : Ref sig .tc := ⟨.hbm, 91, rfl⟩
abbrev main_call1_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call2_cst : Ref sig .tc := ⟨.hbm, 129, rfl⟩
abbrev main_call2_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_14 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_16 : Ref sig .tc := ⟨.hbm, 145, rfl⟩
abbrev main_v103 : Ref sig .tc := ⟨.hbm, 146, rfl⟩
abbrev main_cst_17 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_call3_cst : Ref sig .tc := ⟨.hbm, 166, rfl⟩
abbrev main_call3_v0 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  h_S_ : 0 < S_.numel
  bcast_S_S256 : S_.BroadcastsInDim S256 (![] : Fin 0 → Fin S256.rank)
  bcast_S_S8192x256 : S_.BroadcastsInDim S8192x256 (![] : Fin 0 → Fin S8192x256.rank)
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  dot_S64x8192_S8192x256_S64x256_1_0_0_1_n_n_wf : DotDims.WF S64x8192 S8192x256 S64x256 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf

class Facts : Prop extends Facts₀ where

variable [Facts]
-- ==== Proof.NamedRun.lean ====
/-
  The idealized kernel's run, with every buffer named.

  @main is two pipelined regions among stretches of host operations. The buffer contents at the thirteen segment
  boundaries are a fold from the launch memory: a stretch applies its operations, a region puts each of its arrays at
  what its write-backs leave and keeps every other buffer. Every weakly fair execution terminates without a fault, and
  in its final state EVERY buffer that is not a scratch of a region holds the last boundary's contents — in particular
  the two results, which the later modules read back through the fold to functions of the arguments.
-/
import proofs.«148512_j71073118814831_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the contents of the last segment boundary. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W13 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c b hb => h c _ (mem_uc b hb))

end Cert.KernelIdeal.RunValue

end
-- ==== Proof.KernelArgs.lean ====
/-
  The idealized kernel's arguments at the segment boundaries.

  No host operation and no region of @main writes an argument array: a region reads it through an input window, a host
  stretch only reads it. So at whichever boundary a segment reads an argument, the buffer still holds its launch
  contents — walked back boundary by boundary: across a host stretch because none of its operations writes the buffer,
  across a region because the buffer is none of the region's arrays.
-/
import proofs.«148512_j71073118814831_2_alg».proof.Proof.Gen.KernelIdeal.Frame
import Idealize.ShloMosaic.Lib.StableHlo.Run

set_option maxRecDepth 16384

noncomputable section

namespace Cert.KernelIdeal.Args

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- One boundary back at a time, down to the launch memory. -/
macro "walk_back" : tactic => `(tactic| (
  repeat (first
    | exact rfl
    | refine (W8_of_ne _ _ _ _ (by decide)).trans ?_
    | refine (W2_of_ne _ _ _ _ (by decide)).trans ?_
    | refine (StableHlo.after_of_forall_not_mem _ _ (List.forall_iff_forall_mem.mp (by
          simp only [hostOps0, hostOps1, hostOps1_1, hostOps1_2, hostOps1_3, hostOps1_4, hostOps2, hostOps2_1, hostOps2_2, hostOps2_3, hostOps2_4, List.Forall, StableHlo.nullary_writes, StableHlo.unary_writes,
            StableHlo.binary_writes, StableHlo.reshape_writes, Finset.mem_singleton]
          repeat' apply And.intro
          all_goals exact StableHlo.devRef_ne_of_ne (by decide)))).trans ?_)))

theorem W1_arg1 : W1 m ρ c (Proc.devRef .tc main_arg1) = m ((c.tc : Thread nD τ).loc main_arg1) := by walk_back
theorem W2_arg5 : W2 m ρ c (Proc.devRef .tc main_arg5) = m ((c.tc : Thread nD τ).loc main_arg5) := by walk_back
theorem W2_arg6 : W2 m ρ c (Proc.devRef .tc main_arg6) = m ((c.tc : Thread nD τ).loc main_arg6) := by walk_back
theorem W4_arg7 : W4 m ρ c (Proc.devRef .tc main_arg7) = m ((c.tc : Thread nD τ).loc main_arg7) := by walk_back
theorem W4_arg8 : W4 m ρ c (Proc.devRef .tc main_arg8) = m ((c.tc : Thread nD τ).loc main_arg8) := by walk_back
theorem W4_arg9 : W4 m ρ c (Proc.devRef .tc main_arg9) = m ((c.tc : Thread nD τ).loc main_arg9) := by walk_back
theorem W4_arg10 : W4 m ρ c (Proc.devRef .tc main_arg10) = m ((c.tc : Thread nD τ).loc main_arg10) := by walk_back
theorem W6_arg11 : W6 m ρ c (Proc.devRef .tc main_arg11) = m ((c.tc : Thread nD τ).loc main_arg11) := by walk_back
theorem W6_arg12 : W6 m ρ c (Proc.devRef .tc main_arg12) = m ((c.tc : Thread nD τ).loc main_arg12) := by walk_back
/-- The 8192 × 8192 argument is an input array of both regions: a region leaves an input array as it found it. -/
theorem W2_arg1 : W2 m ρ c (Proc.devRef .tc main_arg1) = m ((c.tc : Thread nD τ).loc main_arg1) :=
  ((W2_arr m ρ c 0).trans (((dat0 (V1 m ρ) c).arrAt_in 0 rfl _).trans (A_eq0 (V1 m ρ) c 0))).trans (W1_arg1 m ρ c)
theorem W7_arg1 : W7 m ρ c (Proc.devRef .tc main_arg1) = m ((c.tc : Thread nD τ).loc main_arg1) := by
  walk_back
  exact W2_arg1 m ρ c
theorem W8_arg13 : W8 m ρ c (Proc.devRef .tc main_arg13) = m ((c.tc : Thread nD τ).loc main_arg13) := by walk_back
theorem W8_arg14 : W8 m ρ c (Proc.devRef .tc main_arg14) = m ((c.tc : Thread nD τ).loc main_arg14) := by walk_back
theorem W10_arg15 : W10 m ρ c (Proc.devRef .tc main_arg15) = m ((c.tc : Thread nD τ).loc main_arg15) := by walk_back
theorem W10_arg16 : W10 m ρ c (Proc.devRef .tc main_arg16) = m ((c.tc : Thread nD τ).loc main_arg16) := by walk_back
theorem W10_arg17 : W10 m ρ c (Proc.devRef .tc main_arg17) = m ((c.tc : Thread nD τ).loc main_arg17) := by walk_back
theorem W10_arg18 : W10 m ρ c (Proc.devRef .tc main_arg18) = m ((c.tc : Thread nD τ).loc main_arg18) := by walk_back
theorem W12_arg2 : W12 m ρ c (Proc.devRef .tc main_arg2) = m ((c.tc : Thread nD τ).loc main_arg2) := by walk_back

/-- The last stretch (one product, with the 64 × 8192 argument) does not write the 8192 × 256 array it reads. -/
theorem W13_v119 : W13 m ρ c (Proc.devRef .tc main_v119) = W12 m ρ c (Proc.devRef .tc main_v119) :=
  StableHlo.after_of_forall_not_mem _ _ (List.forall_iff_forall_mem.mp (by
    simp only [hostOps2_4, List.Forall, StableHlo.binary_writes, Finset.mem_singleton]
    exact StableHlo.devRef_ne_of_ne (by decide)))

end Cert.KernelIdeal.Args

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibFusedLinear.lean ====
/-
  A fused linear map, one block of rows at a time, over the extended reals.

  The whole-array function is (X · H) · W with the row b added to every row: entry (r, q) is
  ∑ c, (∑ k, X (r, k) · H (k, c)) · W (c, q) + b (0, q). A kernel that handles rows off, …, off + m - 1 at a time — the
  block of X times H into a zero accumulator, that times W into a second zero accumulator, plus b spread over the m
  rows — computes exactly the entries of that function in those rows: an entry of a product into a zero accumulator is
  the plain sum over the contracted coordinate, the inner sum reads row off + a of X because the block's row a is that
  row, and the bias does not depend on the row at all. No law of the extended reals is used: the two sides are the same
  sums of the same products in the same order.
-/
import proofs.«148512_j71073118814831_2_alg».proof.Proof.LibPlainMatmul

noncomputable section

namespace Cert.Lib

open Idealize.ShloMosaic Idealize.ShloMosaic.ValueIdx

/-- `(X · H) · W` with the 1 × N row `b` added to every row, entry by entry, as sums. -/
def fusedLinear {M K D N : Nat} {φ₁ φ₂ φ₃ : FTy} (X : FVec Ideal ⟨2, ![M, K]⟩ φ₁) (H : FVec Ideal ⟨2, ![K, D]⟩ φ₂)
    (W : FVec Ideal ⟨2, ![D, N]⟩ φ₃) (b : FVec Ideal ⟨2, ![1, N]⟩ .f32) : FVec Ideal ⟨2, ![M, N]⟩ .f32 :=
  fun i => (∑ c : Fin D, (∑ k : Fin K, X (ix2 (i 0) k) * H (ix2 k c)) * W (ix2 c (i 1))) + b (ix2 0 (i 1))

/-- The block computation at a block index `j` is the whole function where the result block puts `j`. `p` is the first
    product as the second one receives it (it may have passed through a change of float format, the identity here),
    `bb` the bias as the sum receives it (spread over the rows). Of how the block of `X` and the result block sit in
    their arrays only the coordinates are assumed: rows shifted by `off`, columns kept. -/
theorem fused_linear_row_block {m M K D N : Nat} {φ₁ φ₂ φ₃ φ₄ : FTy} (off : Nat)
    (x : FVec Ideal ⟨2, ![m, K]⟩ φ₁) (H : FVec Ideal ⟨2, ![K, D]⟩ φ₂) (W : FVec Ideal ⟨2, ![D, N]⟩ φ₃)
    (b : FVec Ideal ⟨2, ![1, N]⟩ .f32) (X : FVec Ideal ⟨2, ![M, K]⟩ φ₁)
    (p : FVec Ideal ⟨2, ![m, D]⟩ φ₄)
    (hp : ∀ y, p y = matmul (DotDims.plain m K D) none x H (constant ⟨2, ![m, D]⟩ .f32 0x00000000#32) y)
    (bb : FVec Ideal ⟨2, ![m, N]⟩ .f32) (hbb : ∀ y, bb y = b (ix2 0 (y 1)))
    (ex : (⟨2, ![m, K]⟩ : Shape).Idx → (⟨2, ![M, K]⟩ : Shape).Idx)
    (eo : (⟨2, ![m, N]⟩ : Shape).Idx → (⟨2, ![M, N]⟩ : Shape).Idx)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (j : (⟨2, ![m, N]⟩ : Shape).Idx) :
    matmul (DotDims.plain m D N) none p W (constant ⟨2, ![m, N]⟩ .f32 0x00000000#32) j + bb j
      = fusedLinear X H W b (eo j) := by
  obtain ⟨a, q, rfl⟩ : ∃ (a : Fin m) (q : Fin N), j = ix2 a q := ⟨j 0, j 1, eq_ix2 j⟩
  have hcol : eo (ix2 a q) 1 = q := Fin.ext (heo1 (ix2 a q))
  have hb : bb (ix2 a q) = b (ix2 0 q) := hbb (ix2 a q)
  unfold fusedLinear
  rw [matmul_plain_zero_apply, hb, hcol]
  refine congrArg (· + b (ix2 0 q)) (Finset.sum_congr rfl fun c _ => ?_)
  rw [hp, matmul_plain_zero_apply]
  refine congrArg (· * W (ix2 c q)) (Finset.sum_congr rfl fun k _ => ?_)
  rw [hx]
  refine congrArg (fun z => X z * H (ix2 k c)) ?_
  funext d; apply Fin.ext
  match d with
  | ⟨0, _⟩ => exact (hex0 (ix2 a k)).trans (heo0 (ix2 a q)).symm
  | ⟨1, _⟩ => exact hex1 (ix2 a k)

end Cert.Lib

end
-- ==== Proof.Region0.lean ====
/-
  Region 0: what its result array holds when the pipeline has run, as one function of the arrays it was entered with.

  The grid has 32 points. Point t takes rows 256·t, …, 256·t + 255 of the 8192 × 8192 array X (all 8192 columns), and the
  whole of the 8192 × 128 array H, the 128 × 256 array W and the 1 × 256 row b; it forms (X-block · H) · W, each product
  into a zero accumulator, adds b to every row, and writes the 256 × 256 result to rows 256·t … of the result array.
  A block of rows of a product depends on those rows of the left factor only, so point t writes exactly block t of
  (X · H) · W + b, the 32 blocks tile the result array, and the array ends holding that whole function.
-/
import proofs.«148512_j71073118814831_2_alg».proof.Proof.Gen.KernelIdeal.Frame
import proofs.«148512_j71073118814831_2_alg».proof.Proof.LibFusedLinear
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its 256 × 256 result, when its first operand is a block of rows `off …` of `X`:
    the entry of (X · H) · W + b where the result block puts it. The body's format changes are the identity on the
    extended reals, its shape casts are casts to the same shape, and its broadcast of the 1 × 256 row reads column q of
    the row at every entry of column q. -/
theorem payload_at (x0 : Vec Ideal S256x8192 .f32) (x1 : Vec Ideal S8192x128 .bf16) (x2 : Vec Ideal S128x256 .bf16) (x3 : Vec Ideal S1x256 .f32)
    (X : FVec Ideal S8192x8192 .f32) (off : Nat)
    (ex : S256x8192.Idx → S8192x8192.Idx) (eo : S256x256.Idx → S8192x256.Idx)
    (hx : ∀ y, x0 y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (j : S256x256.Idx) :
    k0_pay1 (F := Ideal) x0 x1 x2 x3 j = Cert.Lib.fusedLinear (φ₁ := .f32) (φ₂ := .bf16) (φ₃ := .bf16) X x1 x2 x3 (eo j) := by
  unfold k0_pay1
  rw [shapeCast_self, shapeCast_self, shapeCast_self]
  exact Cert.Lib.fused_linear_row_block off (truncf .bf16 x0 bitsLt_bf16_f32) x1 x2 x3 X _ (fun _ => rfl) _
    (fun y => broadcastTo_apply x3 broadcasts_S1x256_S256x256 y (ix2 0 (y 1)) (fun a => by
      match a with
      | ⟨0, _⟩ => show 0 = if (1 : Nat) = 1 then 0 else _; rw [if_pos rfl]
      | ⟨1, _⟩ => show (y 1).val = if (256 : Nat) = 1 then 0 else _; rw [if_neg (by decide)]; rfl))
    ex eo hx hex0 hex1 heo0 heo1 j

/-- The printed index maps, decided over the grid: the X window and the result window are at block row t, column
    block 0; the three whole-array windows are at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A window whose one block is its whole array reads, at every point, the array itself. -/
theorem whole1 (c : Dev nD) (t : Fin cfg0.N) : iblk0 V c 1 t = V c main_v0 := by
  obtain ⟨-, -, e0, e1, -⟩ := idx_facts t
  funext y
  show V c main_v0 (((cfg0.win 1).blk t).view.emb y) = V c main_v0 y
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 128 + 1 * (y 1).val = (y 1).val; omega
theorem whole2 (c : Dev nD) (t : Fin cfg0.N) : iblk0 V c 2 t = V c main_v1 := by
  obtain ⟨-, -, -, -, e0, e1, -⟩ := idx_facts t
  funext y
  show V c main_v1 (((cfg0.win 2).blk t).view.emb y) = V c main_v1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega
theorem whole3 (c : Dev nD) (t : Fin cfg0.N) : iblk0 V c 3 t = V c main_v2 := by
  obtain ⟨-, -, -, -, -, -, e0, e1, -⟩ := idx_facts t
  funext y
  show V c main_v2 (((cfg0.win 3).blk t).view.emb y) = V c main_v2 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The whole-array function the region computes, of the arrays as the region finds them. -/
abbrev result (c : Dev nD) : FVec Ideal S8192x256 .f32 :=
  Cert.Lib.fusedLinear (φ₁ := .f32) (φ₂ := .bf16) (φ₃ := .bf16) (V c main_arg1) (V c main_v0) (V c main_v1) (V c main_v2)

/-- WHAT POINT t WRITES BACK is block t of the whole-array function. -/
theorem flushed_eq (c : Dev nD) (t : Fin cfg0.N) :
    (dat0 (F := Ideal) V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S256x8192) hz, View.ld_unit_zero (S := S8192x128) hz, View.ld_unit_zero (S := S128x256) hz,
    View.ld_unit_zero (S := S1x256) hz]
  rw [whole1 V c t, whole2 V c t, whole3 V c t]
  obtain ⟨a0, a1, -, -, -, -, -, -, o0, o1⟩ := idx_facts t
  funext j
  exact payload_at (iblk0 V c 0 t) (V c main_v0) (V c main_v1) (V c main_v2) (V c main_arg1) (t.val * 256)
    (fun y => ((cfg0.win 0).blk t).view.emb y) (fun y => ((cfg0.win 4).blk t).view.emb y)
    (fun y => rfl)
    (fun y => by show win0_0.index t (0 : Fin 2) * 256 + 1 * (y 0).val = _; omega)
    (fun y => by show win0_0.index t (1 : Fin 2) * 8192 + 1 * (y 1).val = _; omega)
    (fun y => by show win0_4.index t (0 : Fin 2) * 256 + 1 * (y 0).val = _; omega)
    (fun y => by show win0_4.index t (1 : Fin 2) * 256 + 1 * (y 1).val = _; omega)
    j

/-- An index of the result array is in point t's block iff each coordinate is in the block's range on its axis. -/
theorem mem_blk (t : Fin cfg0.N) (i : S8192x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v3).slice (win0_4.rect t)).set ↔ _
  rw [View.set_slice_whole, Rect.mem_set_unit]
  exact Iff.rfl

/-- The 32 blocks tile the result array: row r is in the block of point r / 256. -/
theorem cover (i : S8192x256.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 256 := (i 1).isLt
  refine ⟨⟨(i 0).val / 256, by rw [hN]; omega⟩, flush0_4 _, ?_⟩
  obtain ⟨-, -, -, -, -, -, -, -, o0, o1⟩ := idx_facts ⟨(i 0).val / 256, by rw [hN]; omega⟩
  rw [mem_blk]
  intro a
  match a with
  | ⟨0, _⟩ => show win0_4.index _ (0 : Fin 2) * 256 ≤ (i 0).val ∧ (i 0).val < win0_4.index _ (0 : Fin 2) * 256 + 256; rw [o0]; show (i 0).val / 256 * 256 ≤ _ ∧ _ < (i 0).val / 256 * 256 + 256; omega
  | ⟨1, _⟩ => show win0_4.index _ (1 : Fin 2) * 256 ≤ (i 1).val ∧ (i 1).val < win0_4.index _ (1 : Fin 2) * 256 + 256; rw [o1]; omega

/-- THE RESULT ARRAY after the region: the whole-array function of the arrays the region was entered with. -/
theorem final (c : Dev nD) : (dat0 (F := Ideal) V c).arrAt 4 cfg0.N = result V c :=
  (dat0 (F := Ideal) V c).arrAt_eq_of_cover 4 (result V c) (fun t _ => flushed_eq V c t) (cover)

end Cert.KernelIdeal.Region0

end
-- ==== Proof.Region1.lean ====
/-
  Region 1: what its result array holds when the pipeline has run, as one function of the arrays it was entered with.

  The grid has 32 points. Point t takes rows 256·t, …, 256·t + 255 of the 8192 × 8192 array X (all 8192 columns), and the
  whole of the 8192 × 256 array H, the 256 × 256 array W and the 1 × 256 row b; it forms (X-block · H) · W, each product
  into a zero accumulator, adds b to every row, and writes the 256 × 256 result to rows 256·t … of the result array.
  A block of rows of a product depends on those rows of the left factor only, so point t writes exactly block t of
  (X · H) · W + b, the 32 blocks tile the result array, and the array ends holding that whole function.
-/
import proofs.«148512_j71073118814831_2_alg».proof.Proof.Gen.KernelIdeal.Frame
import proofs.«148512_j71073118814831_2_alg».proof.Proof.LibFusedLinear
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its 256 × 256 result, when its first operand is a block of rows `off …` of `X`:
    the entry of (X · H) · W + b where the result block puts it. The body's format changes are the identity on the
    extended reals, its shape casts are casts to the same shape, and its broadcast of the 1 × 256 row reads column q of
    the row at every entry of column q. -/
theorem payload_at (x0 : Vec Ideal S256x8192 .f32) (x1 : Vec Ideal S8192x256 .bf16) (x2 : Vec Ideal S256x256 .bf16) (x3 : Vec Ideal S1x256 .f32)
    (X : FVec Ideal S8192x8192 .f32) (off : Nat)
    (ex : S256x8192.Idx → S8192x8192.Idx) (eo : S256x256.Idx → S8192x256.Idx)
    (hx : ∀ y, x0 y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (j : S256x256.Idx) :
    k1_pay1 (F := Ideal) x0 x1 x2 x3 j = Cert.Lib.fusedLinear (φ₁ := .f32) (φ₂ := .bf16) (φ₃ := .bf16) X x1 x2 x3 (eo j) := by
  unfold k1_pay1
  rw [shapeCast_self, shapeCast_self, shapeCast_self]
  exact Cert.Lib.fused_linear_row_block off (truncf .bf16 x0 bitsLt_bf16_f32) x1 x2 x3 X _ (fun _ => rfl) _
    (fun y => broadcastTo_apply x3 broadcasts_S1x256_S256x256 y (ix2 0 (y 1)) (fun a => by
      match a with
      | ⟨0, _⟩ => show 0 = if (1 : Nat) = 1 then 0 else _; rw [if_pos rfl]
      | ⟨1, _⟩ => show (y 1).val = if (256 : Nat) = 1 then 0 else _; rw [if_neg (by decide)]; rfl))
    ex eo hx hex0 hex1 heo0 heo1 j

/-- The printed index maps, decided over the grid: the X window and the result window are at block row t, column
    block 0; the three whole-array windows are at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A window whose one block is its whole array reads, at every point, the array itself. -/
theorem whole1 (c : Dev nD) (t : Fin cfg1.N) : iblk1 V c 1 t = V c main_v60 := by
  obtain ⟨-, -, e0, e1, -⟩ := idx_facts t
  funext y
  show V c main_v60 (((cfg1.win 1).blk t).view.emb y) = V c main_v60 y
  refine congrArg _ (funext fun a => Fin.ext ?_)
  match a with
  | ⟨0, _⟩ => show win1_1.index t (0 : Fin 2) * 8192 + 1 * (y 0).val = (y 0).val; omega
  | ⟨1, _⟩ => show win1_1.index t (1 : Fin 2) * 256 + 1 * (y 1).val = (y 1).val; omega
theorem whole2 (c : Dev nD) (t : Fin cfg1.N) : iblk1 V c 2 t = V c main_v61 := by
  obtain ⟨-, -, -, -, e0, e1, -⟩ := idx_facts t
  funext y
  show V c main_v61 (((cfg1.win 2).blk t).view.emb y) = V c main_v61 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega
theorem whole3 (c : Dev nD) (t : Fin cfg1.N) : iblk1 V c 3 t = V c main_v62 := by
  obtain ⟨-, -, -, -, -, -, e0, e1, -⟩ := idx_facts t
  funext y
  show V c main_v62 (((cfg1.win 3).blk t).view.emb y) = V c main_v62 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The whole-array function the region computes, of the arrays as the region finds them. -/
abbrev result (c : Dev nD) : FVec Ideal S8192x256 .f32 :=
  Cert.Lib.fusedLinear (φ₁ := .f32) (φ₂ := .bf16) (φ₃ := .bf16) (V c main_arg1) (V c main_v60) (V c main_v61) (V c main_v62)

/-- WHAT POINT t WRITES BACK is block t of the whole-array function. -/
theorem flushed_eq (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S256x8192) hz, View.ld_unit_zero (S := S8192x256) hz, View.ld_unit_zero (S := S256x256) hz,
    View.ld_unit_zero (S := S1x256) hz]
  rw [whole1 V c t, whole2 V c t, whole3 V c t]
  obtain ⟨a0, a1, -, -, -, -, -, -, o0, o1⟩ := idx_facts t
  funext j
  exact payload_at (iblk1 V c 0 t) (V c main_v60) (V c main_v61) (V c main_v62) (V c main_arg1) (t.val * 256)
    (fun y => ((cfg1.win 0).blk t).view.emb y) (fun y => ((cfg1.win 4).blk t).view.emb y)
    (fun y => rfl)
    (fun y => by show win1_0.index t (0 : Fin 2) * 256 + 1 * (y 0).val = _; omega)
    (fun y => by show win1_0.index t (1 : Fin 2) * 8192 + 1 * (y 1).val = _; omega)
    (fun y => by show win1_4.index t (0 : Fin 2) * 256 + 1 * (y 0).val = _; omega)
    (fun y => by show win1_4.index t (1 : Fin 2) * 256 + 1 * (y 1).val = _; omega)
    j

/-- An index of the result array is in point t's block iff each coordinate is in the block's range on its axis. -/
theorem mem_blk (t : Fin cfg1.N) (i : S8192x256.Idx) :
    i ∈ ((cfg1.win 4).blk t).view.set ↔ ∀ a : Fin 2, win1_4.index t a * S256x256.size a ≤ (i a).val ∧ (i a).val < win1_4.index t a * S256x256.size a + S256x256.size a := by
  show i ∈ ((View.whole main_v63).slice (win1_4.rect t)).set ↔ _
  rw [View.set_slice_whole, Rect.mem_set_unit]
  exact Iff.rfl

/-- The 32 blocks tile the result array: row r is in the block of point r / 256. -/
theorem cover (i : S8192x256.Idx) :
    ∃ t : Fin cfg1.N, (cfg1.win 4).flush t = true ∧ i ∈ ((cfg1.win 4).blk t).view.set := by
  have hN : cfg1.N = 32 := N_1
  have hi0 : (i 0).val < 8192 := (i 0).isLt
  have hi1 : (i 1).val < 256 := (i 1).isLt
  refine ⟨⟨(i 0).val / 256, by rw [hN]; omega⟩, flush1_4 _, ?_⟩
  obtain ⟨-, -, -, -, -, -, -, -, o0, o1⟩ := idx_facts ⟨(i 0).val / 256, by rw [hN]; omega⟩
  rw [mem_blk]
  intro a
  match a with
  | ⟨0, _⟩ => show win1_4.index _ (0 : Fin 2) * 256 ≤ (i 0).val ∧ (i 0).val < win1_4.index _ (0 : Fin 2) * 256 + 256; rw [o0]; show (i 0).val / 256 * 256 ≤ _ ∧ _ < (i 0).val / 256 * 256 + 256; omega
  | ⟨1, _⟩ => show win1_4.index _ (1 : Fin 2) * 256 ≤ (i 1).val ∧ (i 1).val < win1_4.index _ (1 : Fin 2) * 256 + 256; rw [o1]; omega

/-- THE RESULT ARRAY after the region: the whole-array function of the arrays the region was entered with. -/
theorem final (c : Dev nD) : (dat1 (F := Ideal) V c).arrAt 4 cfg1.N = result V c :=
  (dat1 (F := Ideal) V c).arrAt_eq_of_cover 4 (result V c) (fun t _ => flushed_eq V c t) (cover)

end Cert.KernelIdeal.Region1

end
-- ==== Proof.RefStages.lean ====
/-
  The reference's @main, one stretch of operations at a time.

  The reference is a straight line of 151 host operations, and its run ends with every buffer at the fold of their
  results over the launch contents. The fold over the first n operations is the buffers' contents after the n-th; it
  extends by a stretch of operations as the fold of that stretch over it, and under every prefix an argument array,
  which no operation writes, still holds its launch contents. The bridge to the kernel reads one stretch at a time
  through these, so no composed term ever spans more than one stretch.
-/
import proofs.«148512_j71073118814831_2_alg».proof.Proof.RefRun
import Idealize.ShloMosaic.PureOps.Ideal

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

/-- A fold over a concatenation is the fold over the second list of the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The buffers' contents after the first `n` operations. -/
def RV (n : Nat) : Valuation τ sig (Elt Ideal) := after ((ops (F := Ideal)).take n) (launchContents m c)

/-- The next `len` operations, folded over the contents after the first `n`. -/
theorem RV_add (n len : Nat) : RV m c (n + len) = after (((ops (F := Ideal)).drop n).take len) (RV m c n) := by
  unfold RV
  rw [List.take_add, after_append]

/-- After all 151 operations: the run's final contents. -/
theorem RV_all : after (ops (F := Ideal)) (launchContents m c) = RV m c 151 := by
  unfold RV
  rw [List.take_of_length_le (by decide)]

/-- A buffer no operation writes holds its launch contents under every prefix. -/
theorem RV_keep (n : Nat) (b : Ref sig .tc) (hb : ∀ op ∈ (ops (F := Ideal)), Proc.devRef .tc b ∉ op.writes) :
    RV m c n (Proc.devRef .tc b) = launchContents m c (Proc.devRef .tc b) :=
  after_of_forall_not_mem _ _ fun op hop => hb op (List.mem_of_mem_take hop)

/-- No operation writes an argument. -/
macro "not_written" : tactic => `(tactic| (
  refine List.forall_iff_forall_mem.mp ?_
  simp only [ops, List.Forall, StableHlo.nullary_writes, StableHlo.unary_writes, StableHlo.binary_writes,
    StableHlo.reshape_writes, Finset.mem_singleton]
  repeat' apply And.intro
  all_goals exact StableHlo.devRef_ne_of_ne (by decide)))

theorem arg0_kept (n : Nat) : RV m c n (Proc.devRef .tc main_arg0) = m ((c.tc : Thread nD τ).loc main_arg0) :=
  RV_keep m c n main_arg0 (by not_written)
theorem arg1_kept (n : Nat) : RV m c n (Proc.devRef .tc main_arg1) = m ((c.tc : Thread nD τ).loc main_arg1) :=
  RV_keep m c n main_arg1 (by not_written)
theorem arg2_kept (n : Nat) : RV m c n (Proc.devRef .tc main_arg2) = m ((c.tc : Thread nD τ).loc main_arg2) :=
  RV_keep m c n main_arg2 (by not_written)
theorem arg3_kept (n : Nat) : RV m c n (Proc.devRef .tc main_arg3) = m ((c.tc : Thread nD τ).loc main_arg3) :=
  RV_keep m c n main_arg3 (by not_written)
theorem arg4_kept (n : Nat) : RV m c n (Proc.devRef .tc main_arg4) = m ((c.tc : Thread nD τ).loc main_arg4) :=
  RV_keep m c n main_arg4 (by not_written)
theorem arg5_kept (n : Nat) : RV m c n (Proc.devRef .tc main_arg5) = m ((c.tc : Thread nD τ).loc main_arg5) :=
  RV_keep m c n main_arg5 (by not_written)
theorem arg6_kept (n : Nat) : RV m c n (Proc.devRef .tc main_arg6) = m ((c.tc : Thread nD τ).loc main_arg6) :=
  RV_keep m c n main_arg6 (by not_written)
theorem arg7_kept (n : Nat) : RV m c n (Proc.devRef .tc main_arg7) = m ((c.tc : Thread nD τ).loc main_arg7) :=
  RV_keep m c n main_arg7 (by not_written)
theorem arg8_kept (n : Nat) : RV m c n (Proc.devRef .tc main_arg8) = m ((c.tc : Thread nD τ).loc main_arg8) :=
  RV_keep m c n main_arg8 (by not_written)
theorem arg9_kept (n : Nat) : RV m c n (Proc.devRef .tc main_arg9) = m ((c.tc : Thread nD τ).loc main_arg9) :=
  RV_keep m c n main_arg9 (by not_written)
theorem arg10_kept (n : Nat) : RV m c n (Proc.devRef .tc main_arg10) = m ((c.tc : Thread nD τ).loc main_arg10) :=
  RV_keep m c n main_arg10 (by not_written)
theorem arg11_kept (n : Nat) : RV m c n (Proc.devRef .tc main_arg11) = m ((c.tc : Thread nD τ).loc main_arg11) :=
  RV_keep m c n main_arg11 (by not_written)
theorem arg12_kept (n : Nat) : RV m c n (Proc.devRef .tc main_arg12) = m ((c.tc : Thread nD τ).loc main_arg12) :=
  RV_keep m c n main_arg12 (by not_written)
theorem arg13_kept (n : Nat) : RV m c n (Proc.devRef .tc main_arg13) = m ((c.tc : Thread nD τ).loc main_arg13) :=
  RV_keep m c n main_arg13 (by not_written)
theorem arg14_kept (n : Nat) : RV m c n (Proc.devRef .tc main_arg14) = m ((c.tc : Thread nD τ).loc main_arg14) :=
  RV_keep m c n main_arg14 (by not_written)
theorem arg15_kept (n : Nat) : RV m c n (Proc.devRef .tc main_arg15) = m ((c.tc : Thread nD τ).loc main_arg15) :=
  RV_keep m c n main_arg15 (by not_written)
theorem arg16_kept (n : Nat) : RV m c n (Proc.devRef .tc main_arg16) = m ((c.tc : Thread nD τ).loc main_arg16) :=
  RV_keep m c n main_arg16 (by not_written)
theorem arg17_kept (n : Nat) : RV m c n (Proc.devRef .tc main_arg17) = m ((c.tc : Thread nD τ).loc main_arg17) :=
  RV_keep m c n main_arg17 (by not_written)
theorem arg18_kept (n : Nat) : RV m c n (Proc.devRef .tc main_arg18) = m ((c.tc : Thread nD τ).loc main_arg18) :=
  RV_keep m c n main_arg18 (by not_written)

end Cert.ReferenceIdeal.Stages

end
-- ==== Proof.LibFusedLinearHost.lean ====
/-
  The fused linear map as the host computes it, over the extended reals.

  The host forms X · H, then (X · H) · W, spreads the bias over the rows and adds: entry (r, q) of the host's product of
  [M, K] by [K, D] is the sum over the contracted coordinate of the products of the entries, so the host's result is,
  entry by entry, ∑ c, (∑ k, X (r, k) · H (k, c)) · W (c, q) + b (0, q) — the whole-array function `fusedLinear`. The
  operands may be given in other float formats on the two sides (the extended reals do not see a format), so they are
  related entry by entry.
-/
import proofs.«148512_j71073118814831_2_alg».proof.Proof.LibFusedLinear
import Idealize.ShloMosaic.Lib.StackMember

noncomputable section

namespace Cert.Lib

open Idealize.ShloMosaic Idealize.ShloMosaic.ValueIdx

/-- `fusedLinear X H W b` is the host's `(X' · H') · W' + B` when the operands agree entry by entry and `B` is `b`'s
    row at every row. -/
theorem fusedLinear_eq_host {M K D N : Nat} {φ₁ φ₂ φ₃ ψ₁ ψ₂ ψ₃ ψ₄ : FTy} (p₁ p₂ : Option ContractPrecision)
    (X : FVec Ideal ⟨2, ![M, K]⟩ φ₁) (H : FVec Ideal ⟨2, ![K, D]⟩ φ₂) (W : FVec Ideal ⟨2, ![D, N]⟩ φ₃)
    (b : FVec Ideal ⟨2, ![1, N]⟩ .f32)
    (X' : FVec Ideal ⟨2, ![M, K]⟩ ψ₁) (H' : FVec Ideal ⟨2, ![K, D]⟩ ψ₂) (W' : FVec Ideal ⟨2, ![D, N]⟩ ψ₃)
    (B : FVec Ideal ⟨2, ![M, N]⟩ .f32)
    (hX : ∀ i, X i = X' i) (hH : ∀ i, H i = H' i) (hW : ∀ i, W i = W' i)
    (hB : ∀ (r : Fin M) (q : Fin N), B (ix2 r q) = b (ix2 0 q)) :
    fusedLinear X H W b
      = addf (Host.dotGeneral (DotDims.plain M D N) p₂
          (Host.dotGeneral (DotDims.plain M K D) p₁ X' H' : FVec Ideal ⟨2, ![M, D]⟩ ψ₄) W') B := by
  funext i
  obtain ⟨r, q, rfl⟩ : ∃ (r : Fin M) (q : Fin N), i = ix2 r q := ⟨i 0, i 1, eq_ix2 i⟩
  rw [addf_apply, StackMember.dotGeneral_plain_apply, hB]
  unfold fusedLinear
  refine congrArg (· + b (ix2 0 q)) (Finset.sum_congr rfl fun c _ => ?_)
  rw [StackMember.dotGeneral_plain_apply, hW]
  refine congrArg (· * W' (ix2 c q)) (Finset.sum_congr rfl fun k _ => ?_)
  rw [hX, hH]
  rfl

end Cert.Lib

end
-- ==== Proof.Bridge.lean ====
/-
  The bridge: the idealized kernel's buffers at its segment boundaries are the reference's buffers after the
  corresponding prefixes of its operations.

  From arguments that agree, both programs compute twice in a row: (X · H) · W + b with X the 8192 × 8192 argument and H
  the current 8192-row array; each column minus its mean over the 8192 rows, times the reciprocal square root of its
  variance plus a constant, times a scale, plus a shift; the maximum with zero; a second product plus bias; the same
  normalisation and maximum again. Then the product of the 64 × 8192 argument with the final array. The reference does
  all of it on the host; the kernel does each (X · H) · W + b in a pipelined region, 256 rows at a time, and the rest
  on the host by the same operations in the same order. So the two runs are walked side by side, one stretch at a time:
  where the operands of a stretch agree so do its results, the stretch being the same composition of the same
  operations; and a region's result array is the reference's two products and broadcast bias because both are, entry by
  entry, the same sums of the same products (a block of rows of a product depends on those rows of the left factor
  only; a change of float format is the identity on the extended reals). No other law of the extended reals is used,
  so the arguments' finiteness is never needed.
-/
import proofs.«148512_j71073118814831_2_alg».proof.Proof.KernelArgs
import proofs.«148512_j71073118814831_2_alg».proof.Proof.Region0
import proofs.«148512_j71073118814831_2_alg».proof.Proof.Region1
import proofs.«148512_j71073118814831_2_alg».proof.Proof.RefStages
import proofs.«148512_j71073118814831_2_alg».proof.Proof.LibFusedLinearHost
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen (W0 W1 W2 W3 W4 W5 W6 W7 W8 W9 W10 W11 W12 W13 V1 V7 W2_arr W8_arr)
open Cert.KernelIdeal.Args Cert.ReferenceIdeal.Stages

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-- The two launch memories agree on the nineteen arguments, on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

/-- What region 0 is entered with: the 8192 × 8192 argument, and the host's three operations before it (two changes of
    float format, the identity here, and the bias cast to one row). -/
theorem entry0_H (i) : V1 m ρ c Cert.KernelIdeal.main_v0 i = m ((c.tc : Thread Cert.KernelIdeal.nD Cert.KernelIdeal.τ).loc Cert.KernelIdeal.main_arg0) i := by
  show StableHlo.after Cert.KernelIdeal.Gen.hostOps0 (W0 m ρ c) (Proc.devRef .tc Cert.KernelIdeal.main_v0) i = _
  after_results
  rfl
theorem entry0_W (i) : V1 m ρ c Cert.KernelIdeal.main_v1 i = m ((c.tc : Thread Cert.KernelIdeal.nD Cert.KernelIdeal.τ).loc Cert.KernelIdeal.main_arg3) i := by
  show StableHlo.after Cert.KernelIdeal.Gen.hostOps0 (W0 m ρ c) (Proc.devRef .tc Cert.KernelIdeal.main_v1) i = _
  after_results
  rfl
theorem entry0_b (q : Fin 256) : V1 m ρ c Cert.KernelIdeal.main_v2 (ix2 0 q) = m ((c.tc : Thread Cert.KernelIdeal.nD Cert.KernelIdeal.τ).loc Cert.KernelIdeal.main_arg4) (ix1 q) := by
  show StableHlo.after Cert.KernelIdeal.Gen.hostOps0 (W0 m ρ c) (Proc.devRef .tc Cert.KernelIdeal.main_v2) (ix2 0 q) = _
  after_results
  exact shapeCast_a_1a_apply _ _ 0 q

/-- REGION 0 against the reference's first five operations (two products, the bias spread over the rows, the sum). -/
theorem b0 (hA : Agree m c m') : W2 m ρ c (Proc.devRef .tc Cert.KernelIdeal.main_v3) = RV m' c 5 (Proc.devRef .tc Cert.ReferenceIdeal.main_v4) := by
  refine ((W2_arr m ρ c 4).trans (Cert.KernelIdeal.Region0.final (V1 m ρ) c)).trans ?_
  show _ = RV m' c (0 + 5) (Proc.devRef .tc Cert.ReferenceIdeal.main_v4)
  rw [RV_add]
  generalize hL : Cert.KernelIdeal.Region0.result (V1 m ρ) c = L
  simp only [Cert.ReferenceIdeal.ValueP.ops, List.drop_succ_cons, List.drop_zero, List.take_succ_cons, List.take_zero]
  after_results_simp
  rw [arg0_kept m' c 0, arg1_kept m' c 0, arg3_kept m' c 0, arg4_kept m' c 0, ← hL]
  refine Cert.Lib.fusedLinear_eq_host (ψ₄ := .f32) none none _ _ _ _ _ _ _ _ (fun i => ?_) (fun i => ?_) (fun i => ?_) (fun r q => ?_)
  · show W1 m ρ c (Proc.devRef .tc Cert.KernelIdeal.main_arg1) i = _
    rw [W1_arg1 m ρ c, hA.a1]
  · rw [entry0_H, hA.a0]
  · rw [entry0_W, hA.a3]
  · rw [entry0_b, hA.a4]
    refine (broadcastInDim_apply _ _ _ (ix2 r q) (ix2 0 q) (fun a => ?_)).trans
      (broadcastInDim_apply _ _ _ (ix2 0 q) (ix1 q) (fun a => ?_))
    · match a with
      | ⟨0, _⟩ => show (0 : Nat) = if (1 : Nat) = 1 then 0 else _; rw [if_pos rfl]
      | ⟨1, _⟩ => show q.val = if (256 : Nat) = 1 then 0 else _; rw [if_neg (by decide)]; rfl
    · match a with
      | ⟨0, _⟩ => show q.val = if (256 : Nat) = 1 then 0 else _; rw [if_neg (by decide)]; rfl

/-- After region 0: each column's mean and variance over the 8192 rows, the normalisation, scale and shift — against the reference's same thirty operations. -/
theorem b1 (hA : Agree m c m') : W3 m ρ c (Proc.devRef .tc Cert.KernelIdeal.main_v28) = RV m' c 35 (Proc.devRef .tc Cert.ReferenceIdeal.main_v29) := by
  show StableHlo.after Cert.KernelIdeal.Gen.hostOps1 (W2 m ρ c) (Proc.devRef .tc Cert.KernelIdeal.main_v28) = RV m' c (5 + 30) (Proc.devRef .tc Cert.ReferenceIdeal.main_v29)
  rw [RV_add]
  have hin0 := b0 m ρ c m' hA
  have hk5 := W2_arg5 m ρ c
  have hk6 := W2_arg6 m ρ c
  generalize W2 m ρ c = V at hin0 hk5 hk6 ⊢
  simp only [Cert.ReferenceIdeal.ValueP.ops, List.drop_succ_cons, List.drop_zero, List.take_succ_cons, List.take_zero]
  after_results_simp
  rw [hin0, hk5, hk6, arg5_kept m' c 5, hA.a5, arg6_kept m' c 5, hA.a6]
  first | done | rfl

/-- The maximum with zero. -/
theorem b2 (hA : Agree m c m') : W4 m ρ c (Proc.devRef .tc Cert.KernelIdeal.main_v29) = RV m' c 38 (Proc.devRef .tc Cert.ReferenceIdeal.main_v30) := by
  show StableHlo.after Cert.KernelIdeal.Gen.hostOps1_1 (W3 m ρ c) (Proc.devRef .tc Cert.KernelIdeal.main_v29) = RV m' c (35 + 3) (Proc.devRef .tc Cert.ReferenceIdeal.main_v30)
  rw [RV_add]
  have hin0 := b1 m ρ c m' hA
  generalize W3 m ρ c = V at hin0 ⊢
  simp only [Cert.ReferenceIdeal.ValueP.ops, List.drop_succ_cons, List.drop_zero, List.take_succ_cons, List.take_zero]
  after_results_simp
  rw [hin0]
  first | done | rfl

/-- The second linear map of the first round and its normalisation — the reference's same thirty-four operations. -/
theorem b3 (hA : Agree m c m') : W5 m ρ c (Proc.devRef .tc Cert.KernelIdeal.main_v58) = RV m' c 72 (Proc.devRef .tc Cert.ReferenceIdeal.main_v59) := by
  show StableHlo.after Cert.KernelIdeal.Gen.hostOps1_2 (W4 m ρ c) (Proc.devRef .tc Cert.KernelIdeal.main_v58) = RV m' c (38 + 34) (Proc.devRef .tc Cert.ReferenceIdeal.main_v59)
  rw [RV_add]
  have hin0 := b2 m ρ c m' hA
  have hk7 := W4_arg7 m ρ c
  have hk8 := W4_arg8 m ρ c
  have hk9 := W4_arg9 m ρ c
  have hk10 := W4_arg10 m ρ c
  generalize W4 m ρ c = V at hin0 hk7 hk8 hk9 hk10 ⊢
  simp only [Cert.ReferenceIdeal.ValueP.ops, List.drop_succ_cons, List.drop_zero, List.take_succ_cons, List.take_zero]
  after_results_simp
  rw [hin0, hk7, hk8, hk9, hk10, arg7_kept m' c 38, hA.a7, arg8_kept m' c 38, hA.a8, arg9_kept m' c 38, hA.a9, arg10_kept m' c 38, hA.a10]
  first | done | rfl

/-- The maximum with zero: the first round's output. -/
theorem b4 (hA : Agree m c m') : W6 m ρ c (Proc.devRef .tc Cert.KernelIdeal.main_v59) = RV m' c 75 (Proc.devRef .tc Cert.ReferenceIdeal.main_v60) := by
  show StableHlo.after Cert.KernelIdeal.Gen.hostOps1_3 (W5 m ρ c) (Proc.devRef .tc Cert.KernelIdeal.main_v59) = RV m' c (72 + 3) (Proc.devRef .tc Cert.ReferenceIdeal.main_v60)
  rw [RV_add]
  have hin0 := b3 m ρ c m' hA
  generalize W5 m ρ c = V at hin0 ⊢
  simp only [Cert.ReferenceIdeal.ValueP.ops, List.drop_succ_cons, List.drop_zero, List.take_succ_cons, List.take_zero]
  after_results_simp
  rw [hin0]
  first | done | rfl

/-- What region 1 is entered with: the 8192 × 8192 argument, and the host's three operations before it (the first round's
    output and the weight through a change of float format, the bias cast to one row). -/
theorem entry1_H (i) : V7 m ρ c Cert.KernelIdeal.main_v60 i = W6 m ρ c (Proc.devRef .tc Cert.KernelIdeal.main_v59) i := by
  show StableHlo.after Cert.KernelIdeal.Gen.hostOps1_4 (W6 m ρ c) (Proc.devRef .tc Cert.KernelIdeal.main_v60) i = W6 m ρ c (Proc.devRef .tc Cert.KernelIdeal.main_v59) i
  generalize W6 m ρ c = V
  after_results
  rfl
theorem entry1_W (i) : V7 m ρ c Cert.KernelIdeal.main_v61 i = m ((c.tc : Thread Cert.KernelIdeal.nD Cert.KernelIdeal.τ).loc Cert.KernelIdeal.main_arg11) i := by
  show StableHlo.after Cert.KernelIdeal.Gen.hostOps1_4 (W6 m ρ c) (Proc.devRef .tc Cert.KernelIdeal.main_v61) i = _
  have h := W6_arg11 m ρ c
  generalize W6 m ρ c = V at h ⊢
  after_results
  rw [h]
  rfl
theorem entry1_b (q : Fin 256) : V7 m ρ c Cert.KernelIdeal.main_v62 (ix2 0 q) = m ((c.tc : Thread Cert.KernelIdeal.nD Cert.KernelIdeal.τ).loc Cert.KernelIdeal.main_arg12) (ix1 q) := by
  show StableHlo.after Cert.KernelIdeal.Gen.hostOps1_4 (W6 m ρ c) (Proc.devRef .tc Cert.KernelIdeal.main_v62) (ix2 0 q) = _
  have h := W6_arg12 m ρ c
  generalize W6 m ρ c = V at h ⊢
  after_results
  rw [h]
  exact shapeCast_a_1a_apply _ _ 0 q

/-- REGION 1 against the reference's five operations of its second round's first linear map. -/
theorem b5 (hA : Agree m c m') : W8 m ρ c (Proc.devRef .tc Cert.KernelIdeal.main_v63) = RV m' c 80 (Proc.devRef .tc Cert.ReferenceIdeal.main_v65) := by
  refine ((W8_arr m ρ c 4).trans (Cert.KernelIdeal.Region1.final (V7 m ρ) c)).trans ?_
  show _ = RV m' c (75 + 5) (Proc.devRef .tc Cert.ReferenceIdeal.main_v65)
  rw [RV_add]
  generalize hL : Cert.KernelIdeal.Region1.result (V7 m ρ) c = L
  simp only [Cert.ReferenceIdeal.ValueP.ops, List.drop_succ_cons, List.drop_zero, List.take_succ_cons, List.take_zero]
  after_results_simp
  rw [arg1_kept m' c 75, arg11_kept m' c 75, arg12_kept m' c 75, ← hL]
  refine Cert.Lib.fusedLinear_eq_host (ψ₄ := .f32) none none _ _ _ _ _ _ _ _ (fun i => ?_) (fun i => ?_) (fun i => ?_) (fun r q => ?_)
  · show W7 m ρ c (Proc.devRef .tc Cert.KernelIdeal.main_arg1) i = _
    rw [W7_arg1 m ρ c, hA.a1]
  · rw [entry1_H, b4 m ρ c m' hA]
  · rw [entry1_W, hA.a11]
  · rw [entry1_b, hA.a12]
    refine (broadcastInDim_apply _ _ _ (ix2 r q) (ix2 0 q) (fun a => ?_)).trans
      (broadcastInDim_apply _ _ _ (ix2 0 q) (ix1 q) (fun a => ?_))
    · match a with
      | ⟨0, _⟩ => show (0 : Nat) = if (1 : Nat) = 1 then 0 else _; rw [if_pos rfl]
      | ⟨1, _⟩ => show q.val = if (256 : Nat) = 1 then 0 else _; rw [if_neg (by decide)]; rfl
    · match a with
      | ⟨0, _⟩ => show q.val = if (256 : Nat) = 1 then 0 else _; rw [if_neg (by decide)]; rfl

/-- After region 1: the column statistics, normalisation, scale and shift of the second round. -/
theorem b6 (hA : Agree m c m') : W9 m ρ c (Proc.devRef .tc Cert.KernelIdeal.main_v88) = RV m' c 110 (Proc.devRef .tc Cert.ReferenceIdeal.main_v90) := by
  show StableHlo.after Cert.KernelIdeal.Gen.hostOps2 (W8 m ρ c) (Proc.devRef .tc Cert.KernelIdeal.main_v88) = RV m' c (80 + 30) (Proc.devRef .tc Cert.ReferenceIdeal.main_v90)
  rw [RV_add]
  have hin0 := b5 m ρ c m' hA
  have hk13 := W8_arg13 m ρ c
  have hk14 := W8_arg14 m ρ c
  generalize W8 m ρ c = V at hin0 hk13 hk14 ⊢
  simp only [Cert.ReferenceIdeal.ValueP.ops, List.drop_succ_cons, List.drop_zero, List.take_succ_cons, List.take_zero]
  after_results_simp
  rw [hin0, hk13, hk14, arg13_kept m' c 80, hA.a13, arg14_kept m' c 80, hA.a14]
  first | done | rfl

/-- The maximum with zero. -/
theorem b7 (hA : Agree m c m') : W10 m ρ c (Proc.devRef .tc Cert.KernelIdeal.main_v89) = RV m' c 113 (Proc.devRef .tc Cert.ReferenceIdeal.main_v91) := by
  show StableHlo.after Cert.KernelIdeal.Gen.hostOps2_1 (W9 m ρ c) (Proc.devRef .tc Cert.KernelIdeal.main_v89) = RV m' c (110 + 3) (Proc.devRef .tc Cert.ReferenceIdeal.main_v91)
  rw [RV_add]
  have hin0 := b6 m ρ c m' hA
  generalize W9 m ρ c = V at hin0 ⊢
  simp only [Cert.ReferenceIdeal.ValueP.ops, List.drop_succ_cons, List.drop_zero, List.take_succ_cons, List.take_zero]
  after_results_simp
  rw [hin0]
  first | done | rfl

/-- The second linear map of the second round and its normalisation. -/
theorem b8 (hA : Agree m c m') : W11 m ρ c (Proc.devRef .tc Cert.KernelIdeal.main_v118) = RV m' c 147 (Proc.devRef .tc Cert.ReferenceIdeal.main_v120) := by
  show StableHlo.after Cert.KernelIdeal.Gen.hostOps2_2 (W10 m ρ c) (Proc.devRef .tc Cert.KernelIdeal.main_v118) = RV m' c (113 + 34) (Proc.devRef .tc Cert.ReferenceIdeal.main_v120)
  rw [RV_add]
  have hin0 := b7 m ρ c m' hA
  have hk15 := W10_arg15 m ρ c
  have hk16 := W10_arg16 m ρ c
  have hk17 := W10_arg17 m ρ c
  have hk18 := W10_arg18 m ρ c
  generalize W10 m ρ c = V at hin0 hk15 hk16 hk17 hk18 ⊢
  simp only [Cert.ReferenceIdeal.ValueP.ops, List.drop_succ_cons, List.drop_zero, List.take_succ_cons, List.take_zero]
  after_results_simp
  rw [hin0, hk15, hk16, hk17, hk18, arg15_kept m' c 113, hA.a15, arg16_kept m' c 113, hA.a16, arg17_kept m' c 113, hA.a17, arg18_kept m' c 113, hA.a18]
  first | done | rfl

/-- The maximum with zero: the second result, an 8192 × 256 array. -/
theorem b9 (hA : Agree m c m') : W12 m ρ c (Proc.devRef .tc Cert.KernelIdeal.main_v119) = RV m' c 150 (Proc.devRef .tc Cert.ReferenceIdeal.main_v121) := by
  show StableHlo.after Cert.KernelIdeal.Gen.hostOps2_3 (W11 m ρ c) (Proc.devRef .tc Cert.KernelIdeal.main_v119) = RV m' c (147 + 3) (Proc.devRef .tc Cert.ReferenceIdeal.main_v121)
  rw [RV_add]
  have hin0 := b8 m ρ c m' hA
  generalize W11 m ρ c = V at hin0 ⊢
  simp only [Cert.ReferenceIdeal.ValueP.ops, List.drop_succ_cons, List.drop_zero, List.take_succ_cons, List.take_zero]
  after_results_simp
  rw [hin0]
  first | done | rfl

/-- The product of the 64 × 8192 argument with the second result: the first result. -/
theorem b10 (hA : Agree m c m') : W13 m ρ c (Proc.devRef .tc Cert.KernelIdeal.main_v120) = RV m' c 151 (Proc.devRef .tc Cert.ReferenceIdeal.main_v122) := by
  show StableHlo.after Cert.KernelIdeal.Gen.hostOps2_4 (W12 m ρ c) (Proc.devRef .tc Cert.KernelIdeal.main_v120) = RV m' c (150 + 1) (Proc.devRef .tc Cert.ReferenceIdeal.main_v122)
  rw [RV_add]
  have hin0 := b9 m ρ c m' hA
  have hk2 := W12_arg2 m ρ c
  generalize W12 m ρ c = V at hin0 hk2 ⊢
  simp only [Cert.ReferenceIdeal.ValueP.ops, List.drop_succ_cons, List.drop_zero, List.take_succ_cons, List.take_zero]
  after_results_simp
  rw [hin0, hk2, arg2_kept m' c 150, hA.a2]
  first | done | rfl

/-- The last operation does not write the second result. -/
theorem ref_v121_kept : RV m' c 151 (Proc.devRef .tc Cert.ReferenceIdeal.main_v121) = RV m' c 150 (Proc.devRef .tc Cert.ReferenceIdeal.main_v121) := by
  show RV m' c (150 + 1) (Proc.devRef .tc Cert.ReferenceIdeal.main_v121) = _
  rw [RV_add]
  simp only [Cert.ReferenceIdeal.ValueP.ops, List.drop_succ_cons, List.drop_zero, List.take_succ_cons, List.take_zero]
  after_results_simp

/-- THE TWO RESULTS: what the kernel's last boundary holds is what the reference's 151 operations leave. -/
theorem result0 (hA : Agree m c m') : W13 m ρ c (Proc.devRef .tc Cert.KernelIdeal.main_v120)
    = StableHlo.after (Cert.ReferenceIdeal.ValueP.ops (F := Ideal)) (launchContents m' c) (Proc.devRef .tc Cert.ReferenceIdeal.main_v122) :=
  (b10 m ρ c m' hA).trans (congrFun (RV_all m' c).symm _)
theorem result1 (hA : Agree m c m') : W13 m ρ c (Proc.devRef .tc Cert.KernelIdeal.main_v119)
    = StableHlo.after (Cert.ReferenceIdeal.ValueP.ops (F := Ideal)) (launchContents m' c) (Proc.devRef .tc Cert.ReferenceIdeal.main_v121) :=
  (W13_v119 m ρ c).trans ((b9 m ρ c m' hA).trans ((ref_v121_kept (c := c) (m' := m')).symm.trans (congrFun (RV_all m' c).symm _)))

end Cert.Bridge

end
-- ==== Proof.lean ====
/-
  The certificate of a program that applies twice in a row a fused linear map, a column normalisation and a maximum
  with zero, its two fused linear maps computed in pipelined kernels, against its all-host reference, over the extended
  reals.

  Per round the reference forms (X · H) · W + b — X the 8192 × 8192 argument, H the round's 8192-row input, W and b a weight
  and a bias — then replaces every column by itself minus its mean over the 8192 rows, times the reciprocal square root
  of its variance plus a constant, times a scale, plus a shift; takes the maximum with zero; applies a second product
  plus bias; normalises and takes the maximum with zero again. After two rounds it returns the 8192 × 256 array and the
  product of the 64 × 8192 argument with it. The kernel computes each round's (X · H) · W + b in a region of 32 grid
  points, 256 rows of X at a time, and everything else on the host by the same operations in the same order.

  At the ideal instance a change of float format is the identity and a product into a zero accumulator is the plain sum
  over the contracted coordinate, so a region's result array is, entry by entry, the same sums of the same products as
  the reference's two host products and broadcast bias: a block of rows of a product depends on those rows of the left
  factor only, and the 32 blocks tile the array. The host stretches are compared side by side, one stretch at a time:
  equal operands in, equal results out. No distributivity or cancellation is used anywhere, so the arguments'
  finiteness is not needed for the value claim; the precondition is only carried.

  The three frames: the two kernels' are the launch of their two regions over the segment chain, the reference's is
  its straight-line run with the results dropped. The idealization rewrote no operation, so its claim is trivial.
-/
import proofs.«148512_j71073118814831_2_alg».proof.Defs
import proofs.«148512_j71073118814831_2_alg».proof.Proof.Gen.Kernel
import proofs.«148512_j71073118814831_2_alg».proof.Proof.Gen.Kernel.Skeleton
import proofs.«148512_j71073118814831_2_alg».proof.Proof.Gen.Kernel.Launch
import proofs.«148512_j71073118814831_2_alg».proof.Proof.Gen.Kernel.Points
import proofs.«148512_j71073118814831_2_alg».proof.Proof.Gen.Kernel.Frame
import proofs.«148512_j71073118814831_2_alg».proof.Proof.Gen.KernelIdeal
import proofs.«148512_j71073118814831_2_alg».proof.Proof.Gen.KernelIdeal.Skeleton
import proofs.«148512_j71073118814831_2_alg».proof.Proof.Gen.KernelIdeal.Launch
import proofs.«148512_j71073118814831_2_alg».proof.Proof.Gen.KernelIdeal.Points
import proofs.«148512_j71073118814831_2_alg».proof.Proof.Gen.KernelIdeal.Frame
import proofs.«148512_j71073118814831_2_alg».proof.Proof.Gen.ReferenceIdeal
import proofs.«148512_j71073118814831_2_alg».proof.Proof.Gen.Pre_finite_inputs
import proofs.«148512_j71073118814831_2_alg».proof.Proof.NamedRun
import proofs.«148512_j71073118814831_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference's frame: its straight-line run, the results dropped. -/
theorem frame_reference_ideal : Cert.frame_ReferenceIdeal := fun m ρ _ =>
  (θ_run Cert.ReferenceIdeal.defs _ _).mono (fun _ h c => (h c).2.2) (Cert.ReferenceIdeal.ValueP.run (F := Ideal) m ρ)

/-- Both idealized programs run; the kernel's two results are what its last segment boundary holds, and the reference's
    two results, the fold of its 151 operations, are the same arrays: the bridge, from arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v120), fun c => Cert.KernelIdeal.Gen.W13 m ρ c (Proc.devRef .tc Cert.KernelIdeal.main_v119), ?_, ?_⟩
  · refine (θ_run Cert.KernelIdeal.defs _ _).mono (fun r h c => ?_) (Cert.KernelIdeal.RunValue.run_all m ρ)
    exact ⟨h c Cert.KernelIdeal.main_v120 (by decide), h c Cert.KernelIdeal.main_v119 (by decide),
      (h c Cert.KernelIdeal.main_arg0 (by decide)).trans (Cert.KernelIdeal.Gen.W13_main_arg0 m ρ c),
      (h c Cert.KernelIdeal.main_arg1 (by decide)).trans (Cert.KernelIdeal.Gen.W13_main_arg1 m ρ c),
      (h c Cert.KernelIdeal.main_arg2 (by decide)).trans (Cert.KernelIdeal.Gen.W13_main_arg2 m ρ c),
      (h c Cert.KernelIdeal.main_arg3 (by decide)).trans (Cert.KernelIdeal.Gen.W13_main_arg3 m ρ c),
      (h c Cert.KernelIdeal.main_arg4 (by decide)).trans (Cert.KernelIdeal.Gen.W13_main_arg4 m ρ c),
      (h c Cert.KernelIdeal.main_arg5 (by decide)).trans (Cert.KernelIdeal.Gen.W13_main_arg5 m ρ c),
      (h c Cert.KernelIdeal.main_arg6 (by decide)).trans (Cert.KernelIdeal.Gen.W13_main_arg6 m ρ c),
      (h c Cert.KernelIdeal.main_arg7 (by decide)).trans (Cert.KernelIdeal.Gen.W13_main_arg7 m ρ c),
      (h c Cert.KernelIdeal.main_arg8 (by decide)).trans (Cert.KernelIdeal.Gen.W13_main_arg8 m ρ c),
      (h c Cert.KernelIdeal.main_arg9 (by decide)).trans (Cert.KernelIdeal.Gen.W13_main_arg9 m ρ c),
      (h c Cert.KernelIdeal.main_arg10 (by decide)).trans (Cert.KernelIdeal.Gen.W13_main_arg10 m ρ c),
      (h c Cert.KernelIdeal.main_arg11 (by decide)).trans (Cert.KernelIdeal.Gen.W13_main_arg11 m ρ c),
      (h c Cert.KernelIdeal.main_arg12 (by decide)).trans (Cert.KernelIdeal.Gen.W13_main_arg12 m ρ c),
      (h c Cert.KernelIdeal.main_arg13 (by decide)).trans (Cert.KernelIdeal.Gen.W13_main_arg13 m ρ c),
      (h c Cert.KernelIdeal.main_arg14 (by decide)).trans (Cert.KernelIdeal.Gen.W13_main_arg14 m ρ c),
      (h c Cert.KernelIdeal.main_arg15 (by decide)).trans (Cert.KernelIdeal.Gen.W13_main_arg15 m ρ c),
      (h c Cert.KernelIdeal.main_arg16 (by decide)).trans (Cert.KernelIdeal.Gen.W13_main_arg16 m ρ c),
      (h c Cert.KernelIdeal.main_arg17 (by decide)).trans (Cert.KernelIdeal.Gen.W13_main_arg17 m ρ c),
      (h c Cert.KernelIdeal.main_arg18 (by decide)).trans (Cert.KernelIdeal.Gen.W13_main_arg18 m ρ c)⟩
  · refine (θ_run Cert.ReferenceIdeal.defs _ _).mono (fun r h c => ?_) (Cert.ReferenceIdeal.ValueP.run (F := Ideal) m' ρ')
    have hA : Cert.Bridge.Agree m c m' := by
      obtain ⟨a0, a1, a2, a3, a4, a5, a6, a7, a8, a9, a10, a11, a12, a13, a14, a15, a16, a17, a18⟩ := hagree c
      exact ⟨a0, a1, a2, a3, a4, a5, a6, a7, a8, a9, a10, a11, a12, a13, a14, a15, a16, a17, a18⟩
    obtain ⟨h0, h1, hargs⟩ := h c
    exact ⟨h0.trans (Cert.Bridge.result0 m ρ c m' hA).symm, h1.trans (Cert.Bridge.result1 m ρ c m' hA).symm, hargs⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
